-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x64 .f32) (main_arg1 : FVec F S100000x64 .f32) (main_arg2 : FVec F S1600000 .f32) (main_arg3 : IVec S1600000 32) (main_arg4 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S5000x64 : Shape := ⟨2, ![5000, 64]⟩

abbrev nBuf : Space → Nat
  | .hbm => 22
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S1600000x1, .f32⟩
  | .hbm, ⟨15, _⟩ => ⟨S1600000x64, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 31
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S1600000x1, .f32⟩
  | .hbm, ⟨15, _⟩ => ⟨S1600000x64, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S100000x64, .f32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.BlendValue.lean ====
/-
  The idealized kernel's result array as ONE function of the arrays its region stages.

  The region runs over 20 grid points; point `t` stages rows `5000·t … 5000·t + 4999` (all 64 columns) of two arrays —
  the propagated features `p` (window 0: the segment sum the host operations before the region computed) and the
  restart features `h` (window 1: the second argument) — and writes back the same rows of the result (window 2). On a
  block the body is pointwise: every entry becomes `max (p · c₀ + h · c₁) 0`, with `c₀`, `c₁` the two float words of the
  restart blend. The three windows move together (one index map, `t ↦ (t, 0)`), so the block a point writes is the
  restriction of the whole-array function `blend p h` to that block, and the 20 blocks tile the 100000 rows: the array
  after the run is `blend p h`.
-/
import proofs.«114697_j10213432229943_1_alg».proof.Proof.Gen.KernelIdeal.Value
import Idealize.ShloMosaic.Lib.Pipeline.Value

set_option maxRecDepth 16384

noncomputable section

namespace Cert.KernelIdeal.Blend

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The restart blend clamped at zero, entry by entry: `max (p i · c₀ + h i · c₁) 0`, the constants kept as their
    float words (`c₀` is the word of `1 - 0.1`, `c₁` the word of `0.1`; neither is ever evaluated). -/
def blend (p h : S100000x64.Idx → Elt F .f32) : S100000x64.Idx → Elt F .f32 := fun i =>
  FloatOps.maximumf (FloatOps.addf (FloatOps.mulf (p i) (Scalar.ofBits .f32 0x3F666666#32))
    (FloatOps.mulf (h i) (Scalar.ofBits .f32 0x3DCCCCCD#32))) (Scalar.ofBits .f32 0x00000000#32)

/-- The body's loads and its store go through the whole 5000 × 64 block: the rectangle's offset is zero on both axes. -/
theorem offset_zero : (![0, 0] : Fin 2 → Nat) = fun _ => 0 := funext fun a => by fin_cases a <;> rfl

/-- The body reads the propagated block at the very index it writes. -/
theorem read_p_at (y : S5000x64.Idx) : Value.ix2_0 y = y :=
  funext fun a => Fin.ext (by match a with | ⟨0, _⟩ => rfl | ⟨1, _⟩ => rfl)

/-- The body reads the restart block at the very index it writes. -/
theorem read_h_at (y : S5000x64.Idx) : Value.ix2_1 y = y :=
  funext fun a => Fin.ext (by match a with | ⟨0, _⟩ => rfl | ⟨1, _⟩ => rfl)

/-- What the body leaves in the result's block, entry by entry, from the two staged blocks `x0` (propagated) and `x1`
    (restart): the blend clamped at zero of the two entries at the same position. -/
theorem block_apply (x0 x1 : Vec F S5000x64 .f32) (y : S5000x64.Idx) :
    out0_2 x0 x1 y = FloatOps.maximumf (FloatOps.addf (FloatOps.mulf (x0 y) (Scalar.ofBits .f32 0x3F666666#32))
      (FloatOps.mulf (x1 y) (Scalar.ofBits .f32 0x3DCCCCCD#32))) (Scalar.ofBits .f32 0x00000000#32) := by
  have l0 : View.ld x0 r0_0 = x0 := View.ld_unit_zero (S := S5000x64) offset_zero _ x0
  have l1 : View.ld x1 r0_0 = x1 := View.ld_unit_zero (S := S5000x64) offset_zero _ x1
  unfold out0_2
  rw [l0, l1, Value.canon2_eq]
  show FloatOps.maximumf (FloatOps.addf (FloatOps.mulf (x0 (Value.ix2_0 y)) _) (FloatOps.mulf (x1 (Value.ix2_1 y)) _)) _ = _
  rw [read_p_at, read_h_at]

/-- The printed index maps, decided over the 20 grid points: the two input windows sit on the block the output window
    sits on, which is block `(t, 0)` with `t` at most 19. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 19
    ∧ win0_2.index t (1 : Fin 2) = 0 :=
  (by decide +kernel : ∀ t : Fin grid0.N, _)

/-- Every one of the 20 row blocks is some grid point's. -/
theorem block_of_point : ∀ q : Fin 20, ∃ t : Fin cfg0.N, win0_2.index t = ![q.val, 0] :=
  (by decide +kernel : ∀ q : Fin 20, ∃ t : Fin grid0.N, win0_2.index t = ![q.val, 0])

/-- Point `t` writes back block `t` of `blend` of the two staged arrays as the region finds them. -/
theorem flushed_eq (c : Dev nD) (t : Fin cfg0.N) :
    (dats m 0 c).flushed 2 t
      = ((cfg0.win 2).blk t).view.read (Elt F) (blend (V m c main_v12) (V m c main_arg1)) := by
  rw [Value.flushed2]
  obtain ⟨e0, e1, e2, e3, e4, e5⟩ := same_block t
  funext j
  show out0_2 (iblk m c 0 t) (iblk m c 1 t) j = blend (V m c main_v12) (V m c main_arg1) (((cfg0.win 2).blk t).view.emb j)
  refine (block_apply (iblk m c 0 t) (iblk m c 1 t) j).trans ?_
  show FloatOps.maximumf (FloatOps.addf (FloatOps.mulf (V m c main_v12 (((cfg0.win 0).blk t).view.emb j)) (Scalar.ofBits .f32 0x3F666666#32))
      (FloatOps.mulf (V m c main_arg1 (((cfg0.win 1).blk t).view.emb j)) (Scalar.ofBits .f32 0x3DCCCCCD#32))) (Scalar.ofBits .f32 0x00000000#32)
    = FloatOps.maximumf (FloatOps.addf (FloatOps.mulf (V m c main_v12 (((cfg0.win 2).blk t).view.emb j)) (Scalar.ofBits .f32 0x3F666666#32))
      (FloatOps.mulf (V m c main_arg1 (((cfg0.win 2).blk t).view.emb j)) (Scalar.ofBits .f32 0x3DCCCCCD#32))) (Scalar.ofBits .f32 0x00000000#32)
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 64 + 1 * (j 1).val = win0_2.index t (1 : Fin 2) * 64 + 1 * (j 1).val; omega
  rw [h0, h1]

/-- An index of the result is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v13).slice (win0_2.rect t)).set ↔ _
  rw [View.set_slice_whole, Rect.mem_set_unit]
  exact Iff.rfl

/-- The 20 blocks tile the result: row `r` lies in the block of the point that sits on row block `r / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := block_of_point ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the run is `blend` of the propagated features as the region finds them and the restart
    features as launched. -/
theorem final (c : Dev nD) :
    (dats m 0 c).arrAt 2 cfg0.N = blend (V m c main_v12) (m ((c : Thread nD τ).loc main_arg1)) := by
  rw [← V_main_arg1 m c]
  exact (dats m 0 c).arrAt_eq_of_cover 2 _ (fun t _ => flushed_eq m c t) covered

end Cert.KernelIdeal.Blend

end
-- ==== Proof.BlendRun.lean ====
/-
  The idealized kernel's run, read as a function of its five arguments.

  Before the region the host operations compute the propagated features: every edge `e` gathers row `src e` of the
  features (a negative index wrapped once by the row count), scales it by the edge weight, and the scaled rows are
  summed into row `dst e` of an array of zeros. The region stages that array as its first window, so the result array
  after the run is `blend` of it and of the restart features (the second argument), and the arguments end as launched.
-/
import proofs.«114697_j10213432229943_1_alg».proof.Proof.BlendValue
import Idealize.ShloMosaic.Lib.StableHlo.Run

set_option maxRecDepth 16384

noncomputable section

namespace Cert.KernelIdeal.Blend

open Cert.KernelIdeal Cert.KernelIdeal.Gen Idealize.ShloMosaic Idealize.ShloMosaic.TcCoe Idealize.SL.Sem
open Idealize.ShloMosaic.StableHlo

variable {F : FTy → Type} [FloatOps F]

/-- The propagated features as one term of the features `a0`, the edge weights `a2`, the source indices `a3` and the
    destination indices `a4`: gather the source rows, scale each by its edge's weight, sum the scaled rows into the
    destination rows of zeros. -/
def propagated (a0 : (⟨S100000x64, .f32⟩ : BufTy).Contents (Elt F)) (a2 : (⟨S1600000, .f32⟩ : BufTy).Contents (Elt F))
    (a3 a4 : (⟨S1600000, .i32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a4) (mulf (Host.gather gather_S100000x64_S1600000x1_S1600000x64_1_0_n_n_0_1_164 a0 (broadcastInDim S1600000x1 ![0] bcast_S1600000_S1600000x1_0 (select (cmpi .slt a3 (broadcastInDim S1600000 ![] bcast_S_S1600000 (constantI S_ 32 0#32))) (addi a3 (broadcastInDim S1600000 ![] bcast_S_S1600000 (constantI S_ 32 100000#32))) a3))) (broadcastInDim S1600000x64 ![0, 1] bcast_S1600000x1_S1600000x64_0_1 (broadcastInDim S1600000x1 ![0] bcast_S1600000_S1600000x1_0 a2)))

variable (m : (ℓ : Loc nD τ sig) → Buf (Elt F) ℓ) (ρ : Dev nD → PrngReg)

/-- The array the region's first window stages is the propagated features of the arguments as launched. -/
theorem staged_propagated (c : Dev nD) :
    (V m c main_v12 : (⟨S100000x64, .f32⟩ : BufTy).Contents (Elt F))
      = propagated (m ((c : Thread nD τ).loc main_arg0)) (m ((c : Thread nD τ).loc main_arg2)) (m ((c : Thread nD τ).loc main_arg3)) (m ((c : Thread nD τ).loc main_arg4)) := by
  dsimp only [Gen.V, Gen.hostOps0]
  after_results
  rfl

/-- Every weakly fair execution of the idealized kernel terminates with the result at `blend` of the propagated features
    and the restart features of the arguments as launched, the arguments unchanged. -/
theorem run : θ_run defs (onTc (τ := τ) (main (F := F))) ⟨m, fun _ => 0, ρ⟩ fun r => ∀ c : Dev nD,
      r.2.mem ((c : Thread nD τ).loc main_v13)
        = blend (propagated (m ((c : Thread nD τ).loc main_arg0)) (m ((c : Thread nD τ).loc main_arg2)) (m ((c : Thread nD τ).loc main_arg3)) (m ((c : Thread nD τ).loc main_arg4))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).1.trans ((final m c).trans (congrArg (fun p => blend p (m ((c : Thread nD τ).loc main_arg1))) (staged_propagated m c))), (h c).2⟩)
    (Value.run_blocks m ρ)

end Cert.KernelIdeal.Blend

end
-- ==== Proof.BlendRef.lean ====
/-
  The idealized reference computes the same function.

  The reference's operations are the kernel's, in the same order: the same propagated features (gather the source rows,
  scale by the edge weights, sum into the destination rows of zeros), then the product with `c₀`, the restart features'
  product with `c₁`, their sum, and the maximum with zero — on whole arrays, each constant broadcast from a scalar. Read
  at an index, a broadcast scalar is that scalar and each whole-array operation is the scalar operation on the two
  entries, so the reference's term is `blend` of the propagated features and the restart features: no law of the
  extended reals is used, only the definitions.
-/
import proofs.«114697_j10213432229943_1_alg».proof.Proof.BlendRun
import proofs.«114697_j10213432229943_1_alg».proof.Proof.Gen.ReferenceIdeal.Run

set_option maxRecDepth 16384

noncomputable section

namespace Cert.ReferenceIdeal.Blend

open Cert.ReferenceIdeal Cert.ReferenceIdeal.Gen Idealize.ShloMosaic Idealize.ShloMosaic.TcCoe Idealize.SL.Sem

variable {F : FTy → Type} [FloatOps F]

/-- The reference's result term, as a function of the five arguments, is the kernel's: `blend` of the propagated
    features of `a0 a2 a3 a4` and of the restart features `a1`. -/
theorem result_eq (a0 a1 : (⟨S100000x64, .f32⟩ : BufTy).Contents (Elt F)) (a2 : (⟨S1600000, .f32⟩ : BufTy).Contents (Elt F))
    (a3 a4 : (⟨S1600000, .i32⟩ : BufTy).Contents (Elt F)) :
    maximumf (addf (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a4) (mulf (Host.gather gather_S100000x64_S1600000x1_S1600000x64_1_0_n_n_0_1_164 a0 (broadcastInDim S1600000x1 ![0] bcast_S1600000_S1600000x1_0 (select (cmpi .slt a3 (broadcastInDim S1600000 ![] bcast_S_S1600000 (constantI S_ 32 0#32))) (addi a3 (broadcastInDim S1600000 ![] bcast_S_S1600000 (constantI S_ 32 100000#32))) a3))) (broadcastInDim S1600000x64 ![0, 1] bcast_S1600000x1_S1600000x64_0_1 (broadcastInDim S1600000x1 ![0] bcast_S1600000_S1600000x1_0 a2)))) (broadcastInDim S100000x64 ![] bcast_S_S100000x64 (constant S_ .f32 0x3F666666#32))) (mulf a1 (broadcastInDim S100000x64 ![] bcast_S_S100000x64 (constant S_ .f32 0x3DCCCCCD#32)))) (broadcastInDim S100000x64 ![] bcast_S_S100000x64 (constant S_ .f32 0x00000000#32))
      = Cert.KernelIdeal.Blend.blend (Cert.KernelIdeal.Blend.propagated a0 a2 a3 a4) a1 := by
  funext i
  rfl

end Cert.ReferenceIdeal.Blend

end
-- ==== Proof.lean ====
/-
  The certificate of a graph-propagation step with restart.

  Both programs first compute the propagated features `p` on the host, by the same operations: every edge gathers its
  source row of the features (a negative index wrapped once by the row count), scales it by the edge weight, and the
  scaled rows are summed into the edge's destination row of zeros. They then form, entry by entry,
  `max (p · c₀ + h · c₁) 0` with `h` the restart features and `c₀`, `c₁` the float words of `1 - 0.1` and `0.1`: the
  reference on whole arrays on the host (its last step through an outlined clamp at zero), the kernel in one region of 20
  grid points, each staging 5000 rows of `p` and of `h` and writing back the same rows of the result.

  At the ideal instance the two results are the same function of the arguments, with no law of the extended reals
  involved: the operations, their order and the three constant words coincide, so nothing depends on the inputs being
  finite. What is shown is (1) that the kernel's result array is the whole-array function `blend p h` — each point
  writes back the block of `blend` it sits on, and the blocks tile the rows (Proof/BlendValue.lean) —, (2) that the array
  the region stages as `p` is the host operations' term of the arguments (Proof/BlendRun.lean), and (3) that the
  reference's term, read entry by entry, is `blend` of the same propagated features (Proof/BlendRef.lean).

  The three frames are the generated frame runs (the reference's is its run with the result dropped); the idealization
  rewrote no operation, so there is nothing to preserve beyond the program's own text.
-/
import proofs.«114697_j10213432229943_1_alg».proof.Defs
import proofs.«114697_j10213432229943_1_alg».proof.Proof.Gen.Kernel
import proofs.«114697_j10213432229943_1_alg».proof.Proof.Gen.Kernel.Skeleton
import proofs.«114697_j10213432229943_1_alg».proof.Proof.Gen.Kernel.Launch
import proofs.«114697_j10213432229943_1_alg».proof.Proof.Gen.Kernel.Points
import proofs.«114697_j10213432229943_1_alg».proof.Proof.Gen.Kernel.Frame
import proofs.«114697_j10213432229943_1_alg».proof.Proof.Gen.KernelIdeal
import proofs.«114697_j10213432229943_1_alg».proof.Proof.Gen.KernelIdeal.Skeleton
import proofs.«114697_j10213432229943_1_alg».proof.Proof.Gen.KernelIdeal.Launch
import proofs.«114697_j10213432229943_1_alg».proof.Proof.Gen.KernelIdeal.Points
import proofs.«114697_j10213432229943_1_alg».proof.Proof.Gen.KernelIdeal.Frame
import proofs.«114697_j10213432229943_1_alg».proof.Proof.Gen.ReferenceIdeal
import proofs.«114697_j10213432229943_1_alg».proof.Proof.Gen.Pre_finite_inputs
import proofs.«114697_j10213432229943_1_alg».proof.Proof.Gen.KernelIdeal.Value
import proofs.«114697_j10213432229943_1_alg».proof.Proof.Gen.ReferenceIdeal.Run
import proofs.«114697_j10213432229943_1_alg».proof.Proof.BlendValue
import proofs.«114697_j10213432229943_1_alg».proof.Proof.BlendRun
import proofs.«114697_j10213432229943_1_alg».proof.Proof.BlendRef
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing is stated to preserve. -/
theorem preserves : Cert.preserves_Kernel_KernelIdeal := trivial

/-- From memories agreeing on the arguments both idealized programs end with the result at `blend` of the propagated
    features and the restart features: the kernel by its run read block by block, the reference by its run's term read
    entry by entry. -/
theorem algebraic : Cert.algebraic_KernelIdeal_ReferenceIdeal := by
  intro m ρ m' ρ' _ hagree
  refine ⟨_, Cert.KernelIdeal.Blend.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.Blend.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
